-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1x1024 .f32 := Host.absf main_arg4
  let main_cst_6 : FVec F S_ .f32 := constant S_ .f32 0x7F800000#32
  let main_v20 : FVec F S8x1x1024 .f32 := broadcastInDim S8x1x1024 ![] bcast_S_S8x1x1024 main_cst_6
  let main_v21 : IVec S8x1x1024 1 := cmpf .olt main_v19 main_v20
  let main_c_7 : IVec S_ 1 := constantI S_ 1 1#1
  let main_v22 : IVec S_ 1 := (fun x v => Host.reduce IntOp.andi x v reducesTo_S8x1x1024_S_d0_1_2 h_S_) main_v21 main_c_7
  let main_v23 : IVec S_ 1 := andi main_v18 main_v22
  main_v23

def fn {F : FTy → Type} [FloatOps F] (main_arg0 : FVec F S8x2048x1024 .f32) (main_arg1 : FVec F S8x1024x4096 .f32) (main_arg2 : FVec F S8x1x4096 .f32) (main_arg3 : FVec F S8x4096x1024 .f32) (main_arg4 : FVec F S8x1x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x1024, .bf16⟩
  | .hbm, ⟨6, _⟩ => ⟨S8x1024x4096, .bf16⟩
  | .hbm, ⟨7, _⟩ => ⟨S8x4096x1024, .bf16⟩
  | .hbm, ⟨8, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .bf16 = 32 ∨ (Rect.block (s := S8x4096x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .f32 = 32 ∨ (Rect.block (s := S8x2048x1024) S1x512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.SumRuns.lean ====
/-
  A sum over 4096 consecutive places taken as four runs of 1024: on any commutative monoid the sum over
  `Fin 4096` is the sum, over the four runs `h`, of the sum over the run's 1024 places `h * 1024 + k`.
-/
import Mathlib.Algebra.BigOperators.Fin
import Mathlib.Logic.Equiv.Fin.Basic

namespace Cert.SumRuns

open Finset

/-- Place `k` of run `h`. -/
def place (h : Fin 4) (k : Fin 1024) : Fin 4096 := ⟨h.val * 1024 + k.val, by omega⟩

@[simp] theorem place_val (h : Fin 4) (k : Fin 1024) : (place h k).val = h.val * 1024 + k.val := rfl

/-- The sum over all 4096 places is the sum of the four runs' sums. -/
theorem sum_runs {M : Type*} [AddCommMonoid M] (f : Fin 4096 → M) :
    ∑ k : Fin 4096, f k = ∑ h : Fin 4, ∑ k : Fin 1024, f (place h k) := by
  rw [← Fintype.sum_prod_type']
  refine (Fintype.sum_equiv (finProdFinEquiv (m := 4) (n := 1024)) _ _ ?_).symm
  rintro ⟨h, k⟩
  refine congrArg f (Fin.ext ?_)
  simp [finProdFinEquiv, place, Nat.mul_comm, Nat.add_comm]

end Cert.SumRuns
-- ==== Proof.Spec.lean ====
/-
  The expert feed-forward layer as ONE function of its five arrays, entry by entry, on the extended reals.

  For expert `e`, token `t` and output feature `d`:
      out e t d = (∑ₖ hidden e t k · w2(e, k, d)) + b2(e, 0, d),     k over the 4096 hidden units,
      hidden e t k = max (∑ⱼ x(e, t, j) · w1(e, j, k) + b1(e, 0, k)) 0,   j over the 1024 model features.
  The sum over the hidden units may be taken as four runs of 1024 units accumulated in order from zero: addition of
  extended reals is commutative and associative with 0 neutral, whatever the entries are (infinite ones included), so
  the regrouping asks nothing of the inputs.
-/
import proofs.«106679_j55542517072590_1_alg».proof.Proof.SumRuns
import Idealize.ShloMosaic.PureOps.Ideal.Laws
import Idealize.ShloMosaic.Lib.ValueIdx

noncomputable section

namespace Cert.Ffn

open Idealize.ShloMosaic Idealize.ShloMosaic.ValueIdx Cert.SumRuns

/-- The shapes of the tokens, the two weights and the two biases. -/
abbrev SX : Shape := ⟨3, ![8, 2048, 1024]⟩
abbrev SW1 : Shape := ⟨3, ![8, 1024, 4096]⟩
abbrev SB1 : Shape := ⟨3, ![8, 1, 4096]⟩
abbrev SW2 : Shape := ⟨3, ![8, 4096, 1024]⟩
abbrev SB2 : Shape := ⟨3, ![8, 1, 1024]⟩

variable (x : FVec Ideal SX .f32) (w1 : FVec Ideal SW1 .f32) (b1 : FVec Ideal SB1 .f32) (w2 : FVec Ideal SW2 .f32)
  (b2 : FVec Ideal SB2 .f32)

/-- Hidden unit `k` of token `t` of expert `e`: the positive part of the first layer's output. -/
def hidden (e : Fin 8) (t : Fin 2048) (k : Fin 4096) : EReal :=
  max ((∑ j : Fin 1024, x (ix3 e t j) * w1 (ix3 e j k)) + b1 (ix3 e (0 : Fin 1) k)) (Ideal.ofBits .f32 0x00000000#32)

/-- Output feature `d` of token `t` of expert `e`. -/
def out (e : Fin 8) (t : Fin 2048) (d : Fin 1024) : EReal :=
  (∑ k : Fin 4096, hidden x w1 b1 e t k * w2 (ix3 e k d)) + b2 (ix3 e (0 : Fin 1) d)

/-- The whole result array. -/
def ffn : FVec Ideal SX .f32 := fun i => out x w1 b1 w2 b2 (i 0) (i 1) (i 2)

theorem ffn_apply (e : Fin 8) (t : Fin 2048) (d : Fin 1024) :
    ffn x w1 b1 w2 b2 (ix3 e t d) = out x w1 b1 w2 b2 e t d := rfl

/-- What run `h` of 1024 hidden units contributes to output feature `d`. -/
def runPart (e : Fin 8) (t : Fin 2048) (d : Fin 1024) (h : Fin 4) : EReal :=
  ∑ k : Fin 1024, hidden x w1 b1 e t (place h k) * w2 (ix3 e (place h k) d)

/-- The four runs accumulated in order from the zero word, then the bias: the same number. -/
theorem out_eq_runs (e : Fin 8) (t : Fin 2048) (d : Fin 1024) :
    ((((Ideal.ofBits .f32 0x00000000#32 + runPart x w1 b1 w2 e t d 0) + runPart x w1 b1 w2 e t d 1)
        + runPart x w1 b1 w2 e t d 2) + runPart x w1 b1 w2 e t d 3) + b2 (ix3 e (0 : Fin 1) d)
      = out x w1 b1 w2 b2 e t d := by
  unfold out
  rw [sum_runs (fun k => hidden x w1 b1 e t k * w2 (ix3 e k d)), Fin.sum_univ_four, Ideal.ofBits_zero_f32, zero_add]
  rfl

end Cert.Ffn

end
-- ==== Proof.RefIsSpec.lean ====
/-
  The reference computes the feed-forward layer's function: its seven host operations, read at an entry, are
  (∑ₖ max (∑ⱼ x · w1 + b1) 0 · w2) + b2 with the two biases spread over the tokens and the positive part taken against
  a zero constant spread over the whole hidden array.
-/
import proofs.«106679_j55542517072590_1_alg».proof.Proof.Gen.ReferenceIdeal.Read
import proofs.«106679_j55542517072590_1_alg».proof.Proof.Spec

noncomputable section

namespace Cert.Ffn.Ref

open Cert.ReferenceIdeal Cert.ReferenceIdeal.Gen Cert.ReferenceIdeal.Read Idealize.ShloMosaic Idealize.ShloMosaic.ValueIdx

/-- The first product's operand entries for hidden unit `k` of token `(e, t)`: row `(e, t, ·)` of the tokens and column
    `(e, ·, k)` of the first weight; the bias entry is `(e, 0, k)`. -/
theorem lidx0 (e : Fin 8) (t : Fin 2048) (k : Fin 4096) (j : Fin 1024) : lidx_main_v0 (ix3 e t k) j = ix3 e t j :=
  funext fun a => Fin.ext (by match a with | ⟨0, _⟩ => rfl | ⟨1, _⟩ => rfl | ⟨2, _⟩ => rfl)
theorem ridx0 (e : Fin 8) (t : Fin 2048) (k : Fin 4096) (j : Fin 1024) : ridx_main_v0 (ix3 e t k) j = ix3 e j k :=
  funext fun a => Fin.ext (by match a with | ⟨0, _⟩ => rfl | ⟨1, _⟩ => rfl | ⟨2, _⟩ => rfl)
theorem idx1 (e : Fin 8) (t : Fin 2048) (k : Fin 4096) : idx_main_v1 (ix3 e t k) = ix3 e (0 : Fin 1) k :=
  funext fun a => Fin.ext (by match a with | ⟨0, _⟩ => rfl | ⟨1, _⟩ => rfl | ⟨2, _⟩ => rfl)

/-- The second product's operand entries for output `(e, t, d)`: the hidden row `(e, t, ·)` and column `(e, ·, d)` of the
    second weight; the bias entry is `(e, 0, d)`. -/
theorem lidx4 (e : Fin 8) (t : Fin 2048) (d : Fin 1024) (k : Fin 4096) : lidx_main_v4 (ix3 e t d) k = ix3 e t k :=
  funext fun a => Fin.ext (by match a with | ⟨0, _⟩ => rfl | ⟨1, _⟩ => rfl | ⟨2, _⟩ => rfl)
theorem ridx4 (e : Fin 8) (t : Fin 2048) (d : Fin 1024) (k : Fin 4096) : ridx_main_v4 (ix3 e t d) k = ix3 e k d :=
  funext fun a => Fin.ext (by match a with | ⟨0, _⟩ => rfl | ⟨1, _⟩ => rfl | ⟨2, _⟩ => rfl)
theorem idx5 (e : Fin 8) (t : Fin 2048) (d : Fin 1024) : idx_main_v5 (ix3 e t d) = ix3 e (0 : Fin 1) d :=
  funext fun a => Fin.ext (by match a with | ⟨0, _⟩ => rfl | ⟨1, _⟩ => rfl | ⟨2, _⟩ => rfl)

/-- The hidden array the reference forms holds the hidden units. -/
theorem hidden_apply (x : FVec Ideal S8x2048x1024 .f32) (w1 : FVec Ideal S8x1024x4096 .f32) (b1 : FVec Ideal S8x1x4096 .f32)
    (e : Fin 8) (t : Fin 2048) (k : Fin 4096) :
    val_main_v3 (F := Ideal) x w1 b1 (ix3 e t k) = Cert.Ffn.hidden x w1 b1 e t k := by
  rw [val_main_v3_apply, val_main_v2_apply, val_main_v0_apply, val_main_v1_apply, val_main_call0_v0_apply,
    val_main_call0_cst_apply, idx1]
  unfold Cert.Ffn.hidden
  simp only [lidx0, ridx0]
  rfl

/-- The reference's result array is the layer's function of its five arguments. -/
theorem result_eq (x : FVec Ideal S8x2048x1024 .f32) (w1 : FVec Ideal S8x1024x4096 .f32) (b1 : FVec Ideal S8x1x4096 .f32)
    (w2 : FVec Ideal S8x4096x1024 .f32) (b2 : FVec Ideal S8x1x1024 .f32) :
    val_main_v6 (F := Ideal) x w1 b1 w2 b2 = Cert.Ffn.ffn x w1 b1 w2 b2 := by
  funext i
  obtain ⟨e, t, d, rfl⟩ : ∃ (e : Fin 8) (t : Fin 2048) (d : Fin 1024), i = ix3 e t d := ⟨i 0, i 1, i 2, eq_ix3 i⟩
  rw [Cert.Ffn.ffn_apply, val_main_v6_apply, val_main_v4_apply, val_main_v5_apply, idx5]
  unfold Cert.Ffn.out
  simp only [lidx4, ridx4, hidden_apply]
  rfl

end Cert.Ffn.Ref

end
-- ==== Proof.Pieces.lean ====
/-
  What one run of the kernel body leaves behind, in each of its three control cases, as the body's stored values.

  The body keeps a 512 x 1024 accumulator between grid points. Every store it makes overwrites a whole buffer, so
  what a buffer holds afterwards is the value of the LAST store into it, and a load that follows a store reads that
  store's value:
    • first run of a group (the accumulator is reset, then read back and updated): the accumulator ends at the
      accumulating store's value over the reset value;
    • a middle run: the accumulator ends at the accumulating store's value over what the run before left;
    • last run: the same for the accumulator, and the output block ends at the closing store's value over the
      accumulator just written.
  Stated for any float instance; the input buffers are read whole.
-/
import proofs.«106679_j55542517072590_1_alg».proof.Proof.Gen.KernelIdeal.Frame
import Idealize.ShloMosaic.Lib.Pipeline.Value
import Idealize.ShloMosaic.Lib.Tactic

noncomputable section

namespace Cert.Ffn.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First run of a group: the accumulator ends at the tile's update of the reset value. -/
theorem scratch_first (c : Dev nD) (i : grid0.Coords) (a3 : Memref sig .tc .vmem S1x512x1024 .bf16) (h3 : a3.IsWhole) (a4 : Memref sig .tc .vmem S1x1024x1024 .bf16) (h4 : a4.IsWhole) (a5 : Memref sig .tc .vmem S1x1x1024 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x512x1024 .f32) (h8 : a8.IsWhole) (a9 : Memref sig .tc .vmem S512x1024 .f32) (h9 : a9.IsWhole) (hc0 : cond0_0 i) (hc1 : ¬cond0_1 i) (x0 : Vec F S1x512x1024 .bf16) (x1 : Vec F S1x1024x1024 .bf16) (x2 : Vec F S1x1x1024 .f32) (x3 : Vec F S1x1024x1024 .bf16) (x4 : Vec F S1x1x1024 .f32) :
    sout0_A_0 c i a3 h3 a4 h4 a5 h5 a6 h6 a7 h7 a8 h8 a9 h9 hc0 hc1 x0 x1 x2 x3 x4 = k0_pay2 x0 x1 x2 k0_pay1 x3 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S512x1024) hz2, View.readCov_unit_zero (S := S512x1024) _ hz2]
  simp only [View.readAt_eq_ld, h3.read_unread, h4.read_unread, h5.read_unread, h6.read_unread, h7.read_unread, h9.read_unread,
    View.ld_unit_zero (S := S1x512x1024) hz3, View.ld_unit_zero (S := S1x1024x1024) hz3, View.ld_unit_zero (S := S1x1x1024) hz3,
    View.ld_unit_zero (S := S512x1024) hz2]

/-- A middle run: the accumulator ends at the tile's update of what the run before left in it. -/
theorem scratch_middle (c : Dev nD) (i : grid0.Coords) (a3 : Memref sig .tc .vmem S1x512x1024 .bf16) (h3 : a3.IsWhole) (a4 : Memref sig .tc .vmem S1x1024x1024 .bf16) (h4 : a4.IsWhole) (a5 : Memref sig .tc .vmem S1x1x1024 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x512x1024 .f32) (h8 : a8.IsWhole) (a9 : Memref sig .tc .vmem S512x1024 .f32) (h9 : a9.IsWhole) (hc0 : ¬cond0_0 i) (hc1 : ¬cond0_1 i) (x0 : Vec F S1x512x1024 .bf16) (x1 : Vec F S1x1024x1024 .bf16) (x2 : Vec F S1x1x1024 .f32) (x3 : Vec F S1x1024x1024 .bf16) (x4 : Vec F S1x1x1024 .f32) (xs0 : Vec F S512x1024 .f32) :
    sout0_B_0 c i a3 h3 a4 h4 a5 h5 a6 h6 a7 h7 a8 h8 a9 h9 hc0 hc1 x0 x1 x2 x3 x4 xs0 = k0_pay2 x0 x1 x2 xs0 x3 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  rw [View.canon_unit_zero (S := S512x1024) hz2]
  simp only [View.readAt_eq_ld, h3.read_unread, h4.read_unread, h5.read_unread, h6.read_unread, h7.read_unread, h9.read_unread,
    View.ld_unit_zero (S := S1x512x1024) hz3, View.ld_unit_zero (S := S1x1024x1024) hz3, View.ld_unit_zero (S := S1x1x1024) hz3,
    View.ld_unit_zero (S := S512x1024) hz2]

/-- Last run of a group: the output block ends at the closing value over the accumulator the run has just updated. -/
theorem out_last (c : Dev nD) (i : grid0.Coords) (a3 : Memref sig .tc .vmem S1x512x1024 .bf16) (h3 : a3.IsWhole) (a4 : Memref sig .tc .vmem S1x1024x1024 .bf16) (h4 : a4.IsWhole) (a5 : Memref sig .tc .vmem S1x1x1024 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x512x1024 .f32) (h8 : a8.IsWhole) (a9 : Memref sig .tc .vmem S512x1024 .f32) (h9 : a9.IsWhole) (hc0 : ¬cond0_0 i) (hc1 : cond0_1 i) (x0 : Vec F S1x512x1024 .bf16) (x1 : Vec F S1x1024x1024 .bf16) (x2 : Vec F S1x1x1024 .f32) (x3 : Vec F S1x1024x1024 .bf16) (x4 : Vec F S1x1x1024 .f32) (xs0 : Vec F S512x1024 .f32) :
    out0_C_5 c i a3 h3 a4 h4 a5 h5 a6 h6 a7 h7 a8 h8 a9 h9 hc0 hc1 x0 x1 x2 x3 x4 xs0 = k0_pay3 (k0_pay2 x0 x1 x2 xs0 x3) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero (S := S1x512x1024) hz3, View.readCov_unit_zero (S := S512x1024) _ hz2]
  simp only [View.readAt_eq_ld, h3.read_unread, h4.read_unread, h5.read_unread, h6.read_unread, h7.read_unread, h9.read_unread,
    View.ld_unit_zero (S := S1x512x1024) hz3, View.ld_unit_zero (S := S1x1024x1024) hz3, View.ld_unit_zero (S := S1x1x1024) hz3,
    View.ld_unit_zero (S := S512x1024) hz2]

end Cert.Ffn.Pieces

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.Payload.lean ====
/-
  The three values the kernel body stores, read at an entry, on the extended reals.

  One grid point works on a tile: 512 tokens of one expert (a block of `x`), 1024 hidden units (a block of columns of
  the first weight and of its bias, the matching block of rows of the second weight). Write `hid r k` for hidden unit
  `k` of token `r` in the tile,  max (∑ⱼ x(r, j) · w1(j, k) + b1(k)) 0,  and `part r d` for the tile's contribution
  to output feature `d`,  ∑ₖ hid r k · w2(k, d).  Then
    • the reset stores 0 everywhere;
    • the accumulating store writes  acc(r, d) + part r d;
    • the closing store writes  acc(r, d) + b2(d).
  A change of float format is the identity here, and a matrix product into the zero accumulator is the plain sum.
-/
import proofs.«106679_j55542517072590_1_alg».proof.Proof.Gen.KernelIdeal.Skeleton
import proofs.«106679_j55542517072590_1_alg».proof.Proof.LibPlainDot
import Idealize.ShloMosaic.Lib.ValueLayout
import Idealize.ShloMosaic.Lib.ValueIdx
import Idealize.ShloMosaic.PureOps.Ideal.Laws

noncomputable section

namespace Cert.Ffn.Payload

open Cert.KernelIdeal Cert.KernelIdeal.Gen Idealize.ShloMosaic Idealize.ShloMosaic.ValueIdx

/-- Hidden unit `k` of token `r` of a tile: the positive part of the token's row times column `k` of the first
    weight's block, plus that unit's bias. -/
def hid (x0 : FVec Ideal S1x512x1024 .bf16) (x1 : FVec Ideal S1x1024x1024 .bf16) (x2 : FVec Ideal S1x1x1024 .f32)
    (r : Fin 512) (k : Fin 1024) : EReal :=
  max ((∑ j : Fin 1024, x0 (ix3 (0 : Fin 1) r j) * x1 (ix3 (0 : Fin 1) j k)) + x2 (ix3 (0 : Fin 1) (0 : Fin 1) k))
    (Ideal.ofBits .f32 0x00000000#32)

/-- The tile's contribution to output feature `d` of token `r`: its 1024 hidden units against column `d` of the second
    weight's block. -/
def part (x0 : FVec Ideal S1x512x1024 .bf16) (x1 : FVec Ideal S1x1024x1024 .bf16) (x2 : FVec Ideal S1x1x1024 .f32)
    (x3 : FVec Ideal S1x1024x1024 .bf16) (r : Fin 512) (d : Fin 1024) : EReal :=
  ∑ k : Fin 1024, hid x0 x1 x2 r k * x3 (ix3 (0 : Fin 1) k d)

/-- The reset's value is 0 at every entry (the same zero word the positive part is taken against). -/
theorem reset_apply (r : Fin 512) (d : Fin 1024) :
    k0_pay1 (F := Ideal) (ix2 r d) = Ideal.ofBits .f32 0x00000000#32 := by
  unfold k0_pay1
  rw [shapeCast_self]
  rfl

/-- The hidden activations the body forms, at an entry. -/
theorem hidden_apply (x0 : FVec Ideal S1x512x1024 .bf16) (x1 : FVec Ideal S1x1024x1024 .bf16)
    (x2 : FVec Ideal S1x1x1024 .f32) (r : Fin 512) (k : Fin 1024) :
    truncf (F := Ideal) .bf16
      (maximumf
        (addf
          (matmul dot_S512x1024_S1024x1024_S512x1024_1_0_0_1_n_n none
            (shapeCast S512x1024 x0 shapeCasts_S1x512x1024_S512x1024)
            (shapeCast S1024x1024 x1 shapeCasts_S1x1024x1024_S1024x1024) (constant S512x1024 .f32 0x00000000#32))
          (broadcastTo S512x1024 (shapeCast S1x1024 x2 shapeCasts_S1x1x1024_S1x1024) broadcasts_S1x1024_S512x1024))
        (broadcast S512x1024 (FloatOps.ofBits .f32 0x00000000#32)))
      bitsLt_bf16_f32 (ix2 r k) = hid x0 x1 x2 r k := by
  rw [truncf_apply, maximumf_apply, addf_apply, broadcast_apply]
  unfold hid
  refine congrArg₂ max (congrArg₂ (· + ·) ?_ ?_) rfl
  · refine (matmul_plain_zero_apply _ rfl none _ _ r k).trans (Finset.sum_congr rfl fun j _ => ?_)
    rw [shapeCast_1ab_ab_apply, shapeCast_1ab_ab_apply]
  · rw [broadcastTo_1b_ab_apply, shapeCast_1ab_ab_apply]

/-- The accumulating store's value at an entry: what the accumulator held there plus the tile's contribution. -/
theorem accumulate_apply (x0 : FVec Ideal S1x512x1024 .bf16) (x1 : FVec Ideal S1x1024x1024 .bf16)
    (x2 : FVec Ideal S1x1x1024 .f32) (acc : FVec Ideal S512x1024 .f32) (x3 : FVec Ideal S1x1024x1024 .bf16)
    (r : Fin 512) (d : Fin 1024) :
    k0_pay2 (F := Ideal) x0 x1 x2 acc x3 (ix2 r d) = acc (ix2 r d) + part x0 x1 x2 x3 r d := by
  unfold k0_pay2
  rw [shapeCast_self, addf_apply]
  refine congrArg (acc (ix2 r d) + ·) ?_
  refine (matmul_plain_zero_apply _ rfl none _ _ r d).trans (Finset.sum_congr rfl fun k _ => ?_)
  rw [hidden_apply, shapeCast_1ab_ab_apply]

/-- The closing store's value at an entry: the accumulator there plus the output bias of that feature. -/
theorem close_apply (acc : FVec Ideal S512x1024 .f32) (x4 : FVec Ideal S1x1x1024 .f32) (u : Fin 1) (r : Fin 512)
    (d : Fin 1024) :
    k0_pay3 (F := Ideal) acc x4 (ix3 u r d) = acc (ix2 r d) + x4 (ix3 (0 : Fin 1) (0 : Fin 1) d) := by
  unfold k0_pay3
  rw [shapeCast_ab_1ab_apply, addf_apply, broadcastTo_1b_ab_apply, shapeCast_1ab_ab_apply]

end Cert.Ffn.Payload

end
-- ==== Proof.Blocks.lean ====
/-
  The kernel's windows read at an entry.

  The 128 grid points run expert by expert, token tile by token tile, hidden run by hidden run: point `t` is expert
  `t / 16`, token tile `t / 4 % 4` (512 tokens each) and hidden run `t % 4` (1024 hidden units each). At point `t`
  the body is handed
    • rows `tile · 512 + r` of the expert's tokens,
    • columns `run · 1024 + k` of its first weight and of its first bias,
    • rows `run · 1024 + k` of its second weight,
    • its second bias,
  and writes output rows `tile · 512 + r`. The three arrays the host narrows before the launch hold, on the extended
  reals, exactly the arguments: a change of float format is the identity.
-/
import proofs.«106679_j55542517072590_1_alg».proof.Proof.Gen.KernelIdeal.Frame
import Idealize.ShloMosaic.Lib.Pipeline.Value
import Idealize.ShloMosaic.Lib.StableHlo.Run
import Idealize.ShloMosaic.Lib.ValueIdx

noncomputable section

namespace Cert.Ffn.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided once over the grid: which block of each array point `t` works on. -/
theorem idx_facts : ∀ t : Fin cfg0.N,
    (win0_0.index t (0 : Fin 3) = t.val / 16 ∧ win0_0.index t (1 : Fin 3) = t.val / 4 % 4 ∧ win0_0.index t (2 : Fin 3) = 0)
    ∧ (win0_1.index t (0 : Fin 3) = t.val / 16 ∧ win0_1.index t (1 : Fin 3) = 0 ∧ win0_1.index t (2 : Fin 3) = t.val % 4)
    ∧ (win0_2.index t (0 : Fin 3) = t.val / 16 ∧ win0_2.index t (1 : Fin 3) = 0 ∧ win0_2.index t (2 : Fin 3) = t.val % 4)
    ∧ (win0_3.index t (0 : Fin 3) = t.val / 16 ∧ win0_3.index t (1 : Fin 3) = t.val % 4 ∧ win0_3.index t (2 : Fin 3) = 0)
    ∧ (win0_4.index t (0 : Fin 3) = t.val / 16 ∧ win0_4.index t (1 : Fin 3) = 0 ∧ win0_4.index t (2 : Fin 3) = 0)
    ∧ (win0_5.index t (0 : Fin 3) = t.val / 16 ∧ win0_5.index t (1 : Fin 3) = t.val / 4 % 4 ∧ win0_5.index t (2 : Fin 3) = 0) :=
  (by decide +kernel : ∀ t : Fin grid0.N, _)

/-- What the region finds in the three narrowed arrays: the arguments themselves. -/
theorem V_x (c : Dev nD) : (V m c main_v0 : S8x2048x1024.Idx → EReal) = m ((c : Thread nD τ).loc main_arg0) := by
  dsimp only [V, hostOps0]; after_results; rfl
theorem V_w1 (c : Dev nD) : (V m c main_v1 : S8x1024x4096.Idx → EReal) = m ((c : Thread nD τ).loc main_arg1) := by
  dsimp only [V, hostOps0]; after_results; rfl
theorem V_w2 (c : Dev nD) : (V m c main_v2 : S8x4096x1024.Idx → EReal) = m ((c : Thread nD τ).loc main_arg3) := by
  dsimp only [V, hostOps0]; after_results; rfl

/-- The token block at point `t`: row `r` of the tile is token `tile · 512 + r` of the expert. -/
theorem xblk_apply (c : Dev nD) (t : Fin cfg0.N) (r : Fin 512) (j : Fin 1024) (e : Fin 8) (row : Fin 2048) (he : e.val = t.val / 16) (hrow : row.val = t.val / 4 % 4 * 512 + r.val) :
    (iblk m c 0 t : Vec Ideal S1x512x1024 .bf16) (ix3 (0 : Fin 1) r j)
      = m ((c : Thread nD τ).loc main_arg0) (ix3 e row j) := by
  obtain ⟨⟨e0, e1, e2⟩, -⟩ := idx_facts t
  unfold iblk
  rw [View.read_apply]
  show V m c main_v0 (((cfg0.win 0).blk t).view.emb (ix3 (0 : Fin 1) r j)) = _
  rw [V_x]
  refine congrArg _ (funext fun a => Fin.ext ?_)
  match a with
  | ⟨0, _⟩ => show win0_0.index t (0 : Fin 3) * 1 + 1 * 0 = e.val; omega
  | ⟨1, _⟩ => show win0_0.index t (1 : Fin 3) * 512 + 1 * r.val = row.val; omega
  | ⟨2, _⟩ => show win0_0.index t (2 : Fin 3) * 1024 + 1 * j.val = j.val; omega

/-- The first weight's block at point `t`: column `k` of the tile is hidden unit `run · 1024 + k`. -/
theorem w1blk_apply (c : Dev nD) (t : Fin cfg0.N) (j : Fin 1024) (k : Fin 1024) (e : Fin 8) (col : Fin 4096) (he : e.val = t.val / 16) (hcol : col.val = t.val % 4 * 1024 + k.val) :
    (iblk m c 1 t : Vec Ideal S1x1024x1024 .bf16) (ix3 (0 : Fin 1) j k)
      = m ((c : Thread nD τ).loc main_arg1) (ix3 e j col) := by
  obtain ⟨-, ⟨e0, e1, e2⟩, -⟩ := idx_facts t
  unfold iblk
  rw [View.read_apply]
  show V m c main_v1 (((cfg0.win 1).blk t).view.emb (ix3 (0 : Fin 1) j k)) = _
  rw [V_w1]
  refine congrArg _ (funext fun a => Fin.ext ?_)
  match a with
  | ⟨0, _⟩ => show win0_1.index t (0 : Fin 3) * 1 + 1 * 0 = e.val; omega
  | ⟨1, _⟩ => show win0_1.index t (1 : Fin 3) * 1024 + 1 * j.val = j.val; omega
  | ⟨2, _⟩ => show win0_1.index t (2 : Fin 3) * 1024 + 1 * k.val = col.val; omega

/-- The first bias's block at point `t`: entry `k` is the bias of hidden unit `run · 1024 + k`. -/
theorem b1blk_apply (c : Dev nD) (t : Fin cfg0.N) (k : Fin 1024) (e : Fin 8) (col : Fin 4096) (he : e.val = t.val / 16) (hcol : col.val = t.val % 4 * 1024 + k.val) :
    (iblk m c 2 t : Vec Ideal S1x1x1024 .f32) (ix3 (0 : Fin 1) (0 : Fin 1) k)
      = m ((c : Thread nD τ).loc main_arg2) (ix3 e (0 : Fin 1) col) := by
  obtain ⟨-, -, ⟨e0, e1, e2⟩, -⟩ := idx_facts t
  unfold iblk
  rw [View.read_apply]
  show V m c main_arg2 (((cfg0.win 2).blk t).view.emb (ix3 (0 : Fin 1) (0 : Fin 1) k)) = _
  rw [V_main_arg2]
  refine congrArg _ (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 1024 + 1 * k.val = col.val; omega

/-- The second weight's block at point `t`: row `k` of the tile is hidden unit `run · 1024 + k`. -/
theorem w2blk_apply (c : Dev nD) (t : Fin cfg0.N) (k : Fin 1024) (d : Fin 1024) (e : Fin 8) (col : Fin 4096) (he : e.val = t.val / 16) (hcol : col.val = t.val % 4 * 1024 + k.val) :
    (iblk m c 3 t : Vec Ideal S1x1024x1024 .bf16) (ix3 (0 : Fin 1) k d)
      = m ((c : Thread nD τ).loc main_arg3) (ix3 e col d) := by
  obtain ⟨-, -, -, ⟨e0, e1, e2⟩, -⟩ := idx_facts t
  unfold iblk
  rw [View.read_apply]
  show V m c main_v2 (((cfg0.win 3).blk t).view.emb (ix3 (0 : Fin 1) k d)) = _
  rw [V_w2]
  refine congrArg _ (funext fun a => Fin.ext ?_)
  match a with
  | ⟨0, _⟩ => show win0_3.index t (0 : Fin 3) * 1 + 1 * 0 = e.val; omega
  | ⟨1, _⟩ => show win0_3.index t (1 : Fin 3) * 1024 + 1 * k.val = col.val; omega
  | ⟨2, _⟩ => show win0_3.index t (2 : Fin 3) * 1024 + 1 * d.val = d.val; omega

/-- The second bias's block at point `t`: the expert's whole output bias. -/
theorem b2blk_apply (c : Dev nD) (t : Fin cfg0.N) (d : Fin 1024) (e : Fin 8) (he : e.val = t.val / 16) :
    (iblk m c 4 t : Vec Ideal S1x1x1024 .f32) (ix3 (0 : Fin 1) (0 : Fin 1) d)
      = m ((c : Thread nD τ).loc main_arg4) (ix3 e (0 : Fin 1) d) := by
  obtain ⟨-, -, -, -, ⟨e0, e1, e2⟩, -⟩ := idx_facts t
  unfold iblk
  rw [View.read_apply]
  show V m c main_arg4 (((cfg0.win 4).blk t).view.emb (ix3 (0 : Fin 1) (0 : Fin 1) d)) = _
  rw [V_main_arg4]
  refine congrArg _ (funext fun a => Fin.ext ?_)
  match a with
  | ⟨0, _⟩ => show win0_4.index t (0 : Fin 3) * 1 + 1 * 0 = e.val; omega
  | ⟨1, _⟩ => show win0_4.index t (1 : Fin 3) * 1 + 1 * 0 = 0; omega
  | ⟨2, _⟩ => show win0_4.index t (2 : Fin 3) * 1024 + 1 * d.val = d.val; omega

end Cert.Ffn.Blocks

end
-- ==== Proof.Accum.lean ====
/-
  The accumulator over a group of four grid points, and the output block the group's last point writes.

  The four points of a group share an expert and a token tile and walk the four runs of 1024 hidden units. The
  first resets the accumulator and adds its run's contribution; the next two add theirs to what they find; the last
  adds its own and stores the accumulator plus the output bias into the output block. So entry (r, d) of that block is
      ((((0 + run 0) + run 1) + run 2) + run 3) + b2(d)
  for token `tile · 512 + r`, which is the layer's value there: the four runs are the whole sum over the 4096 hidden
  units.
-/
import proofs.«106679_j55542517072590_1_alg».proof.Proof.Gen.KernelIdeal.Frame
import proofs.«106679_j55542517072590_1_alg».proof.Proof.Pieces
import proofs.«106679_j55542517072590_1_alg».proof.Proof.Payload
import proofs.«106679_j55542517072590_1_alg».proof.Proof.Blocks
import proofs.«106679_j55542517072590_1_alg».proof.Proof.Spec

noncomputable section

namespace Cert.Ffn.Accum

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What the tile of point `n` contributes to entry (r, d) of the accumulator. -/
def tilePart (c : Dev nD) (n : ℕ) (hn : n < cfg0.N) (r : Fin 512) (d : Fin 1024) : EReal :=
  Payload.part (iblk m c 0 ⟨n, hn⟩) (iblk m c 1 ⟨n, hn⟩) (iblk m c 2 ⟨n, hn⟩) (iblk m c 3 ⟨n, hn⟩) r d

/-- It is the contribution of hidden run `n % 4` to the layer's output for expert `n / 16` and token
    `tile · 512 + r`: every block entry is the matching entry of an argument. -/
theorem tilePart_eq (c : Dev nD) (n : ℕ) (hn : n < cfg0.N) (r : Fin 512) (d : Fin 1024) (e : Fin 8) (row : Fin 2048)
    (h : Fin 4) (he : e.val = n / 16) (hrow : row.val = n / 4 % 4 * 512 + r.val) (hh : h.val = n % 4) :
    tilePart m c n hn r d = Cert.Ffn.runPart (m ((c : Thread nD τ).loc main_arg0)) (m ((c : Thread nD τ).loc main_arg1)) (m ((c : Thread nD τ).loc main_arg2)) (m ((c : Thread nD τ).loc main_arg3)) e row d h := by
  unfold tilePart Payload.part Cert.Ffn.runPart
  refine Finset.sum_congr rfl fun k _ => ?_
  have hcol : (Cert.SumRuns.place h k).val = n % 4 * 1024 + k.val := by rw [Cert.SumRuns.place_val, hh]
  refine congrArg₂ (· * ·) ?_ (Blocks.w2blk_apply m c ⟨n, hn⟩ k d e (Cert.SumRuns.place h k) he hcol)
  unfold Payload.hid Cert.Ffn.hidden
  exact congrArg₂ max
    (congrArg₂ (· + ·)
      (Finset.sum_congr rfl fun j _ => congrArg₂ (· * ·) (Blocks.xblk_apply m c ⟨n, hn⟩ r j e row he hrow)
        (Blocks.w1blk_apply m c ⟨n, hn⟩ j k e (Cert.SumRuns.place h k) he hcol))
      (Blocks.b1blk_apply m c ⟨n, hn⟩ k e (Cert.SumRuns.place h k) he hcol))
    rfl

/-- After the first point of a group the accumulator holds the zero it was reset to plus that tile's contribution. -/
theorem acc_first (c : Dev nD) (n : ℕ) (hn : n < cfg0.N) (h0 : n % 4 = 0) (r : Fin 512) (d : Fin 1024) :
    (outsAt0 m c n hn).2 (ix2 r d) = Ideal.ofBits .f32 0x00000000#32 + tilePart m c n hn r d := by
  have h1 : ¬n % 4 = 3 := by omega
  have e : outsAt0 m c n hn = (_, _) := outsAt0_A m c ⟨n, hn⟩ h0 h1
  rw [e]
  dsimp only
  rw [Pieces.scratch_first, Payload.accumulate_apply, Payload.reset_apply]
  rfl

/-- After a middle point the accumulator holds what the point before left plus this tile's contribution. -/
theorem acc_middle (c : Dev nD) (n : ℕ) (hn : n < cfg0.N) (h0 : ¬n % 4 = 0) (h1 : ¬n % 4 = 3) (hp : n - 1 < cfg0.N)
    (r : Fin 512) (d : Fin 1024) :
    (outsAt0 m c n hn).2 (ix2 r d) = (outsAt0 m c (n - 1) hp).2 (ix2 r d) + tilePart m c n hn r d := by
  have e : outsAt0 m c n hn = (_, _) := outsAt0_B m c ⟨n, hn⟩ h0 h1
  rw [e]
  dsimp only
  rw [Pieces.scratch_middle, Payload.accumulate_apply]
  rfl

/-- The last point of a group leaves, in the output block, the accumulator it has just updated plus the output bias. -/
theorem out_last (c : Dev nD) (n : ℕ) (hn : n < cfg0.N) (h0 : ¬n % 4 = 0) (h1 : n % 4 = 3) (hp : n - 1 < cfg0.N)
    (u : Fin 1) (r : Fin 512) (d : Fin 1024) :
    (outsAt0 m c n hn).1 (ix3 u r d)
      = ((outsAt0 m c (n - 1) hp).2 (ix2 r d) + tilePart m c n hn r d)
        + (iblk m c 4 ⟨n, hn⟩ : Vec Ideal S1x1x1024 .f32) (ix3 (0 : Fin 1) (0 : Fin 1) d) := by
  have e : outsAt0 m c n hn = (_, _) := outsAt0_C m c ⟨n, hn⟩ h0 h1
  rw [e]
  dsimp only
  rw [Pieces.out_last, Payload.close_apply, Payload.accumulate_apply]
  rfl

/-- So the block written at the last point of a group holds the layer's output for the group's expert and tokens. -/
theorem group_out (c : Dev nD) (n : ℕ) (hn : n < cfg0.N) (h3 : n % 4 = 3) (u : Fin 1) (r : Fin 512) (d : Fin 1024)
    (e : Fin 8) (row : Fin 2048) (he : e.val = n / 16) (hrow : row.val = n / 4 % 4 * 512 + r.val) :
    (outsAt0 m c n hn).1 (ix3 u r d)
      = Cert.Ffn.out (m ((c : Thread nD τ).loc main_arg0)) (m ((c : Thread nD τ).loc main_arg1)) (m ((c : Thread nD τ).loc main_arg2)) (m ((c : Thread nD τ).loc main_arg3)) (m ((c : Thread nD τ).loc main_arg4)) e row d := by
  have hN : cfg0.N = 128 := N_0
  have p1 : n - 1 < cfg0.N := by omega
  have p2 : n - 1 - 1 < cfg0.N := by omega
  have p3 : n - 1 - 1 - 1 < cfg0.N := by omega
  rw [out_last m c n hn (by omega) h3 p1 u r d,
    acc_middle m c (n - 1) p1 (by omega) (by omega) p2 r d,
    acc_middle m c (n - 1 - 1) p2 (by omega) (by omega) p3 r d,
    acc_first m c (n - 1 - 1 - 1) p3 (by omega) r d,
    tilePart_eq m c n hn r d e row 3 he hrow (by show 3 = n % 4; omega),
    tilePart_eq m c (n - 1) p1 r d e row 2 (by omega) (by omega) (by show 2 = (n - 1) % 4; omega),
    tilePart_eq m c (n - 1 - 1) p2 r d e row 1 (by omega) (by omega) (by show 1 = (n - 1 - 1) % 4; omega),
    tilePart_eq m c (n - 1 - 1 - 1) p3 r d e row 0 (by omega) (by omega) (by show 0 = (n - 1 - 1 - 1) % 4; omega),
    Blocks.b2blk_apply m c ⟨n, hn⟩ d e he]
  exact Cert.Ffn.out_eq_runs _ _ _ _ _ e row d

end Cert.Ffn.Accum

end
-- ==== Proof.Final.lean ====
/-
  The kernel's result array after the run is the layer's function of the five arguments.

  The output is written back at the last point of every group of four; the block written there is rows
  `tile · 512 … tile · 512 + 511` of expert `e`'s output, and holds the layer's values for those rows. The 32 groups
  are the 8 experts times the 4 token tiles, so their blocks cover the whole [8, 2048, 1024] array: entry (e, t, d) lies
  in the block of the group of expert `e` and tile `t / 512`.
-/
import proofs.«106679_j55542517072590_1_alg».proof.Proof.Gen.KernelIdeal.Value
import proofs.«106679_j55542517072590_1_alg».proof.Proof.Accum
import proofs.«106679_j55542517072590_1_alg».proof.Proof.Blocks
import proofs.«106679_j55542517072590_1_alg».proof.Proof.Spec

noncomputable section

namespace Cert.Ffn.Final

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's function of the five arguments as core `c` holds them at launch. -/
abbrev result (c : Dev nD) : Buf (Elt Ideal) ((c : Thread nD τ).loc main_v3) :=
  Cert.Ffn.ffn (m ((c : Thread nD τ).loc main_arg0)) (m ((c : Thread nD τ).loc main_arg1)) (m ((c : Thread nD τ).loc main_arg2))
    (m ((c : Thread nD τ).loc main_arg3)) (m ((c : Thread nD τ).loc main_arg4))

/-- The output window's block at point `n`: expert `n / 16`, token tile `n / 4 % 4`, all 1024 features. -/
theorem out_idx (n : ℕ) (hn : n < cfg0.N) :
    win0_5.index ⟨n, hn⟩ (0 : Fin 3) = n / 16 ∧ win0_5.index ⟨n, hn⟩ (1 : Fin 3) = n / 4 % 4
      ∧ win0_5.index ⟨n, hn⟩ (2 : Fin 3) = 0 :=
  (Blocks.idx_facts ⟨n, hn⟩).2.2.2.2.2

/-- What a flushing point writes back is its block of the layer's function. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have hN : cfg0.N = 128 := N_0
  have ht := t.isLt
  obtain ⟨-, -, -, -, -, ⟨e0, e1, e2⟩⟩ := Blocks.idx_facts t
  rw [flushed5]
  refine funext fun (y : S1x512x1024.Idx) => ?_
  obtain ⟨u, r, d, rfl⟩ : ∃ (u : Fin 1) (r : Fin 512) (d : Fin 1024), y = ix3 u r d := ⟨y 0, y 1, y 2, eq_ix3 y⟩
  rw [View.read_apply]
  show (outsAt0 m c t.val t.isLt).1 (ix3 u r d) = result m c (((cfg0.win 5).blk t).view.emb (ix3 u r d))
  have hr := r.isLt
  have hemb : ((cfg0.win 5).blk t).view.emb (ix3 u r d)
      = ix3 (⟨t.val / 16, by omega⟩ : Fin 8) (⟨t.val / 4 % 4 * 512 + r.val, by omega⟩ : Fin 2048) d := by
    funext a; apply Fin.ext
    match a with
    | ⟨0, _⟩ => show win0_5.index t (0 : Fin 3) * 1 + 1 * u.val = t.val / 16; omega
    | ⟨1, _⟩ => show win0_5.index t (1 : Fin 3) * 512 + 1 * r.val = t.val / 4 % 4 * 512 + r.val; omega
    | ⟨2, _⟩ => show win0_5.index t (2 : Fin 3) * 1024 + 1 * d.val = d.val; omega
  rw [hemb]
  exact Accum.group_out m c t.val t.isLt h3 u r d _ _ rfl rfl

/-- Every entry of the result array lies in the block some flushing point writes. -/
theorem cover (i : S8x2048x1024.Idx) :
    ∃ t : Fin cfg0.N, (cfg0.win 5).flush t = true ∧ i ∈ ((cfg0.win 5).blk t).view.set := by
  have hN : cfg0.N = 128 := N_0
  have h0 : (i 0).val < 8 := (i 0).isLt
  have h1 : (i 1).val < 2048 := (i 1).isLt
  have h2 : (i 2).val < 1024 := (i 2).isLt
  have hn : 16 * (i 0).val + 4 * ((i 1).val / 512) + 3 < cfg0.N := by omega
  obtain ⟨e0, e1, e2⟩ := out_idx (16 * (i 0).val + 4 * ((i 1).val / 512) + 3) hn
  refine ⟨⟨16 * (i 0).val + 4 * ((i 1).val / 512) + 3, hn⟩, (flush0_5 _).mpr ?_, ?_⟩
  · show (16 * (i 0).val + 4 * ((i 1).val / 512) + 3) % 4 = 3
    omega
  · show i ∈ ((View.whole main_v3).slice (win0_5.rect ⟨16 * (i 0).val + 4 * ((i 1).val / 512) + 3, hn⟩)).set
    rw [View.set_slice_whole, Rect.mem_set_unit]
    intro a
    match a with
    | ⟨0, _⟩ =>
      show win0_5.index ⟨16 * (i 0).val + 4 * ((i 1).val / 512) + 3, hn⟩ (0 : Fin 3) * 1 ≤ (i 0).val
        ∧ (i 0).val < win0_5.index ⟨16 * (i 0).val + 4 * ((i 1).val / 512) + 3, hn⟩ (0 : Fin 3) * 1 + 1
      omega
    | ⟨1, _⟩ =>
      show win0_5.index ⟨16 * (i 0).val + 4 * ((i 1).val / 512) + 3, hn⟩ (1 : Fin 3) * 512 ≤ (i 1).val
        ∧ (i 1).val < win0_5.index ⟨16 * (i 0).val + 4 * ((i 1).val / 512) + 3, hn⟩ (1 : Fin 3) * 512 + 512
      omega
    | ⟨2, _⟩ =>
      show win0_5.index ⟨16 * (i 0).val + 4 * ((i 1).val / 512) + 3, hn⟩ (2 : Fin 3) * 1024 ≤ (i 2).val
        ∧ (i 2).val < win0_5.index ⟨16 * (i 0).val + 4 * ((i 1).val / 512) + 3, hn⟩ (2 : Fin 3) * 1024 + 1024
      omega

/-- So the result array ends holding the layer's function of the arguments. -/
theorem final (c : Dev nD) : (dats m 0 c).arrAt 5 cfg0.N = result m c :=
  (dats m 0 c).arrAt_eq_of_cover 5 (result m c) (fun t hf => flushed_eq m c t hf) cover

/-- The kernel's run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Ffn.Final

end
-- ==== Proof.lean ====
/- An expert feed-forward layer, y = max (x · W1 + b1) 0 · W2 + b2 for each of 8 experts over 2048 tokens, 1024 model
   features and 4096 hidden units: the kernel against the two-einsum reference, on the extended reals.

   The kernel walks a grid of 8 experts x 4 token tiles x 4 runs of 1024 hidden units. At each point it forms the
   run's hidden activations for the tile's 512 tokens and adds their product with the matching rows of W2 into an
   accumulator that it resets at a group's first point and, at its last, stores with b2 added into the output block.
   The reference forms all 4096 hidden units at once and contracts over them in one product. Entry by entry the two
   are the same number: the kernel's ((((0 + run 0) + run 1) + run 2) + run 3) + b2 is the reference's sum over the 4096
   hidden units plus b2, by commutativity and associativity of addition alone, so nothing is asked of the inputs
   beyond what the statement assumes; narrowing an operand to a shorter float format is the identity here.

   The modules: SumRuns (a sum over 4096 places as four runs), Spec (the layer as one function of its arguments and its
   regrouping into runs), RefIsSpec (the reference's operations are that function), Payload (the body's three stored
   values at an entry), Pieces (what each control case of the body leaves in the accumulator and the output block),
   Blocks (each window's block as entries of the arguments), Accum (a group of four points ends with the layer's values
   in its output block), Final (the blocks cover the result array; the kernel's run read as that function). The frames
   of the two kernel programs, the kernel's run with its output array named, and the reference's run and its
   operations read at an entry are the generated modules imported below. -/
import proofs.«106679_j55542517072590_1_alg».proof.Defs
import proofs.«106679_j55542517072590_1_alg».proof.Proof.Gen.Kernel
import proofs.«106679_j55542517072590_1_alg».proof.Proof.Gen.Kernel.Skeleton
import proofs.«106679_j55542517072590_1_alg».proof.Proof.Gen.Kernel.Launch
import proofs.«106679_j55542517072590_1_alg».proof.Proof.Gen.Kernel.Points
import proofs.«106679_j55542517072590_1_alg».proof.Proof.Gen.Kernel.Frame
import proofs.«106679_j55542517072590_1_alg».proof.Proof.Gen.KernelIdeal
import proofs.«106679_j55542517072590_1_alg».proof.Proof.Gen.KernelIdeal.Skeleton
import proofs.«106679_j55542517072590_1_alg».proof.Proof.Gen.KernelIdeal.Launch
import proofs.«106679_j55542517072590_1_alg».proof.Proof.Gen.KernelIdeal.Points
import proofs.«106679_j55542517072590_1_alg».proof.Proof.Gen.KernelIdeal.Frame
import proofs.«106679_j55542517072590_1_alg».proof.Proof.Gen.KernelIdeal.Value
import proofs.«106679_j55542517072590_1_alg».proof.Proof.Gen.ReferenceIdeal
import proofs.«106679_j55542517072590_1_alg».proof.Proof.Gen.ReferenceIdeal.Run
import proofs.«106679_j55542517072590_1_alg».proof.Proof.Gen.ReferenceIdeal.Read
import proofs.«106679_j55542517072590_1_alg».proof.Proof.Gen.Pre_finite_inputs
import proofs.«106679_j55542517072590_1_alg».proof.Proof.RefIsSpec
import proofs.«106679_j55542517072590_1_alg».proof.Proof.Final
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the five arguments both programs end with the layer's function of those arguments
    in their result arrays: the kernel by its run read block by block, the reference by its operations read at an
    entry. -/
theorem algebraic : Cert.algebraic_KernelIdeal_ReferenceIdeal := by
  intro m ρ m' ρ' _ hagree
  refine ⟨fun c => Cert.Ffn.Final.result m c, Cert.Ffn.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Ffn.Ref.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
